-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x1024x1024 : Shape := ⟨4, ![16, 3, 1024, 1024]⟩
abbrev S16 : Shape := ⟨1, ![16]⟩
abbrev S34x3 : Shape := ⟨2, ![34, 3]⟩
abbrev S_ : Shape := ⟨0, ![]⟩

class Facts : Prop where
  bcast_S_S16x3x1024x1024 : S_.BroadcastsInDim S16x3x1024x1024 (![] : Fin 0 → Fin S16x3x1024x1024.rank)
  reducesTo_S16x3x1024x1024_S_d0_1_2_3 : S16x3x1024x1024.ReducesTo [0, 1, 2, 3] S_
  h_S_ : 0 < S_.numel
  bcast_S_S34x3 : S_.BroadcastsInDim S34x3 (![] : Fin 0 → Fin S34x3.rank)
  reducesTo_S34x3_S_d0_1 : S34x3.ReducesTo [0, 1] S_

variable [Facts]

def fn {F : FTy → Type} [FloatOps F] (main_arg0 : FVec F S16x3x1024x1024 .f32) (main_arg1 : IVec S16 32) (main_arg2 : FVec F S34x3 .f32) (main_arg3 : FVec F S34x3 .f32) : IVec S_ 1 :=
  let main_v0 : FVec F S16x3x1024x1024 .f32 := Host.absf main_arg0
  let main_cst : FVec F S_ .f32 := constant S_ .f32 0x7F800000#32
  let main_v1 : FVec F S16x3x1024x1024 .f32 := broadcastInDim S16x3x1024x1024 ![] bcast_S_S16x3x1024x1024 main_cst
  let main_v2 : IVec S16x3x1024x1024 1 := cmpf .olt main_v0 main_v1
  let main_c : IVec S_ 1 := constantI S_ 1 1#1
  let main_v3 : IVec S_ 1 := (fun x v => Host.reduce IntOp.andi x v reducesTo_S16x3x1024x1024_S_d0_1_2_3 h_S_) main_v2 main_c
  let main_v4 : FVec F S34x3 .f32 := Host.absf main_arg2
  let main_cst_0 : FVec F S_ .f32 := constant S_ .f32 0x7F800000#32
  let main_v5 : FVec F S34x3 .f32 := broadcastInDim S34x3 ![] bcast_S_S34x3 main_cst_0
  let main_v6 : IVec S34x3 1 := cmpf .olt main_v4 main_v5
  let main_c_1 : IVec S_ 1 := constantI S_ 1 1#1
  let main_v7 : IVec S_ 1 := (fun x v => Host.reduce IntOp.andi x v reducesTo_S34x3_S_d0_1 h_S_) main_v6 main_c_1
  let main_v8 : IVec S_ 1 := andi main_v3 main_v7
  let main_v9 : FVec F S34x3 .f32 := Host.absf main_arg3
  let main_cst_2 : FVec F S_ .f32 := constant S_ .f32 0x7F800000#32
  let main_v10 : FVec F S34x3 .f32 := broadcastInDim S34x3 ![] bcast_S_S34x3 main_cst_2
  let main_v11 : IVec S34x3 1 := cmpf .olt main_v9 main_v10
  let main_c_3 : IVec S_ 1 := constantI S_ 1 1#1
  let main_v12 : IVec S_ 1 := (fun x v => Host.reduce IntOp.andi x v reducesTo_S34x3_S_d0_1 h_S_) main_v11 main_c_3
  let main_v13 : IVec S_ 1 := andi main_v8 main_v12
  main_v13
-- ==== Kernel.lean ====
abbrev S16x3x1024x1024 : Shape := ⟨4, ![16, 3, 1024, 1024]⟩
abbrev S16 : Shape := ⟨1, ![16]⟩
abbrev S34x3 : Shape := ⟨2, ![34, 3]⟩
abbrev S_ : Shape := ⟨0, ![]⟩
abbrev S16x1 : Shape := ⟨2, ![16, 1]⟩
abbrev S16x3 : Shape := ⟨2, ![16, 3]⟩
abbrev S16x3x1x1 : Shape := ⟨4, ![16, 3, 1, 1]⟩
abbrev S1x1x1024x1024 : Shape := ⟨4, ![1, 1, 1024, 1024]⟩
abbrev S1x1x1x1 : Shape := ⟨4, ![1, 1, 1, 1]⟩

abbrev nBuf : Space → Nat
  | .hbm => 25
  | .vmem => 8
  | .smem => 0
  | _ => 0

abbrev bufTy : (tb : Table) → Fin (tcTables nBuf tb) → BufTy
  | .hbm, ⟨0, _⟩ => ⟨S16x3x1024x1024, .f32⟩
  | .hbm, ⟨1, _⟩ => ⟨S16, .i32⟩
  | .hbm, ⟨2, _⟩ => ⟨S34x3, .f32⟩
  | .hbm, ⟨3, _⟩ => ⟨S34x3, .f32⟩
  | .hbm, ⟨4, _⟩ => ⟨S_, .i32⟩
  | .hbm, ⟨5, _⟩ => ⟨S16, .i32⟩
  | .hbm, ⟨6, _⟩ => ⟨S16, .i1⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S16, .i32⟩
  | .hbm, ⟨11, _⟩ => ⟨S16x1, .i32⟩
  | .hbm, ⟨12, _⟩ => ⟨S16x3, .f32⟩
  | .hbm, ⟨13, _⟩ => ⟨S_, .i32⟩
  | .hbm, ⟨14, _⟩ => ⟨S16, .i32⟩
  | .hbm, ⟨15, _⟩ => ⟨S16, .i1⟩
  | .hbm, ⟨16, _⟩ => ⟨S_, .i32⟩
  | .hbm, ⟨17, _⟩ => ⟨S16, .i32⟩
  | .hbm, ⟨18, _⟩ => ⟨S16, .i32⟩
  | .hbm, ⟨19, _⟩ => ⟨S16, .i32⟩
  | .hbm, ⟨20, _⟩ => ⟨S16x1, .i32⟩
  | .hbm, ⟨21, _⟩ => ⟨S16x3, .f32⟩
  | .hbm, ⟨22, _⟩ => ⟨S16x3x1x1, .f32⟩
  | .hbm, ⟨23, _⟩ => ⟨S16x3x1x1, .f32⟩
  | .hbm, ⟨24, _⟩ => ⟨S16x3x1024x1024, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1x1, .f32⟩
  | .local _ .vmem, ⟨3, _⟩ => ⟨S1x1x1x1, .f32⟩
  | .local _ .vmem, ⟨4, _⟩ => ⟨S1x1x1x1, .f32⟩
  | .local _ .vmem, ⟨5, _⟩ => ⟨S1x1x1x1, .f32⟩
  | .local _ .vmem, ⟨6, _⟩ => ⟨S1x1x1024x1024, .f32⟩
  | .local _ .vmem, ⟨7, _⟩ => ⟨S1x1x1024x1024, .f32⟩
  | _, _ => ⟨S16x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 3], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S16x3_S16x3x1x1_0_1 : S16x3.BroadcastsInDim S16x3x1x1 (![0, 1] : Fin 2 → Fin S16x3x1x1.rank)
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  inb_S1x1x1x1_S1x1x1x1_0_0_0_0 : ∀ a, (![0, 0, 0, 0] : Fin 4 → Nat) a + S1x1x1x1.size a ≤ S1x1x1x1.size a
  h_S1x1x1x1 : 0 < S1x1x1x1.numel
  shapeCasts_S1x1x1x1_S1x1x1x1 : S1x1x1x1.ShapeCasts S1x1x1x1
  broadcasts_S1x1x1x1_S1x1x1024x1024 : S1x1x1x1.Broadcasts S1x1x1024x1024
  gather_S34x3_S16x1_S16x3_1_0_n_n_0_1_13_wf : GatherDims.WF S34x3 S16x1 S16x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x1024.size a ≤ S16x3x1024x1024.size a
  hwx0_0 : ∀ i : grid0.Coords, EltTy.bits .f32 = 32 ∨ (Rect.block (s := S16x3x1024x1024) S1x1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x1.size a ≤ S16x3x1x1.size a
  hwx0_1 : ∀ i : grid0.Coords, EltTy.bits .f32 = 32 ∨ (Rect.block (s := S16x3x1x1) S1x1x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x1.size a ≤ S16x3x1x1.size a
  hwx0_2 : ∀ i : grid0.Coords, EltTy.bits .f32 = 32 ∨ (Rect.block (s := S16x3x1x1) S1x1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x1024.size a ≤ S16x3x1024x1024.size a
  hwx0_3 : ∀ i : grid0.Coords, EltTy.bits .f32 = 32 ∨ (Rect.block (s := S16x3x1024x1024) S1x1x1024x1024.size (cc0_transform_3 i) (hinb0_3 i)).WholeWords (EltTy.packing .f32)

variable [Facts₀]

def gather_S34x3_S16x1_S16x3_1_0_n_n_0_1_13 : GatherDims S34x3 S16x1 S16x3 where
  offsetDims := [1]
  collapsedSliceDims := [0]
  operandBatchingDims := []
  startIndicesBatchingDims := []
  startIndexMap := [0]
  indexVectorDim := 1
  sliceSizes := ![1, 3]
  wf := gather_S34x3_S16x1_S16x3_1_0_n_n_0_1_13_wf

abbrev win0_0 : Pipeline.Window sig grid0 :=
  Pipeline.Window.ofSpec (Memref.whole main_arg0) S1x1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x1x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x3x1024x1024 : Shape := ⟨4, ![16, 3, 1024, 1024]⟩
abbrev S16 : Shape := ⟨1, ![16]⟩
abbrev S34x3 : Shape := ⟨2, ![34, 3]⟩
abbrev S_ : Shape := ⟨0, ![]⟩
abbrev S16x1 : Shape := ⟨2, ![16, 1]⟩
abbrev S16x3 : Shape := ⟨2, ![16, 3]⟩
abbrev S16x3x1x1 : Shape := ⟨4, ![16, 3, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S16x3x1024x1024, .f32⟩
  | .hbm, ⟨1, _⟩ => ⟨S16, .i32⟩
  | .hbm, ⟨2, _⟩ => ⟨S34x3, .f32⟩
  | .hbm, ⟨3, _⟩ => ⟨S34x3, .f32⟩
  | .hbm, ⟨4, _⟩ => ⟨S_, .i32⟩
  | .hbm, ⟨5, _⟩ => ⟨S16, .i32⟩
  | .hbm, ⟨6, _⟩ => ⟨S16, .i1⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S16, .i32⟩
  | .hbm, ⟨11, _⟩ => ⟨S16x1, .i32⟩
  | .hbm, ⟨12, _⟩ => ⟨S16x3, .f32⟩
  | .hbm, ⟨13, _⟩ => ⟨S16x3x1x1, .f32⟩
  | .hbm, ⟨14, _⟩ => ⟨S_, .i32⟩
  | .hbm, ⟨15, _⟩ => ⟨S16, .i32⟩
  | .hbm, ⟨16, _⟩ => ⟨S16, .i1⟩
  | .hbm, ⟨17, _⟩ => ⟨S_, .i32⟩
  | .hbm, ⟨18, _⟩ => ⟨S16, .i32⟩
  | .hbm, ⟨19, _⟩ => ⟨S16, .i32⟩
  | .hbm, ⟨20, _⟩ => ⟨S16, .i32⟩
  | .hbm, ⟨21, _⟩ => ⟨S16x1, .i32⟩
  | .hbm, ⟨22, _⟩ => ⟨S16x3, .f32⟩
  | .hbm, ⟨23, _⟩ => ⟨S16x3x1x1, .f32⟩
  | .hbm, ⟨24, _⟩ => ⟨S16x3x1024x1024, .f32⟩
  | .hbm, ⟨25, _⟩ => ⟨S16x3x1024x1024, .f32⟩
  | .hbm, ⟨26, _⟩ => ⟨S16x3x1024x1024, .f32⟩
  | .hbm, ⟨27, _⟩ => ⟨S16x3x1024x1024, .f32⟩
  | _, _ => ⟨S16x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S16x3_S16x3x1x1_0_1 : S16x3.BroadcastsInDim S16x3x1x1 (![0, 1] : Fin 2 → Fin S16x3x1x1.rank)
  bcast_S16x3x1x1_S16x3x1024x1024_0_1_2_3 : S16x3x1x1.BroadcastsInDim S16x3x1024x1024 (![0, 1, 2, 3] : Fin 4 → Fin S16x3x1024x1024.rank)
  gather_S34x3_S16x1_S16x3_1_0_n_n_0_1_13_wf : GatherDims.WF S34x3 S16x1 S16x3 [1] [0] [] [0] [] 1 ![1, 3]

variable [Facts₀]

def gather_S34x3_S16x1_S16x3_1_0_n_n_0_1_13 : GatherDims S34x3 S16x1 S16x3 where
  offsetDims := [1]
  collapsedSliceDims := [0]
  operandBatchingDims := []
  startIndicesBatchingDims := []
  startIndexMap := [0]
  indexVectorDim := 1
  sliceSizes := ![1, 3]
  wf := gather_S34x3_S16x1_S16x3_1_0_n_n_0_1_13_wf

class Facts : Prop extends Facts₀ where

variable [Facts]
-- ==== Proof.Affine.lean ====
/-
  The function both programs compute, stated once, over literal shapes and for any float instance.

  For an image `x` of shape [16, 3, 1024, 1024] and two tables `s`, `t` of shape [16, 3, 1, 1] the result is the
  image scaled and shifted per (sample, channel):

      out[b, c, h, w] = x[b, c, h, w] · s[b, c, 0, 0] + t[b, c, 0, 0].

  Each output element reads exactly one element of each operand, and the product and the sum are taken in the same
  order on both sides, so no law of arithmetic is needed to compare the two programs: they are compared as this one
  function of the same three arrays.
-/
import Idealize.ShloMosaic.PureOps

noncomputable section

namespace Cert.Affine

open Idealize.ShloMosaic

/-- The image's shape, and the shape of a per-(sample, channel) table with its two unit axes kept. -/
abbrev Img : Shape := ⟨4, ![16, 3, 1024, 1024]⟩
abbrev Tab : Shape := ⟨4, ![16, 3, 1, 1]⟩

variable {F : FTy → Type} [FloatOps F]

/-- The table entry an image index reads: the same sample and channel, both unit axes at 0. -/
abbrev entry (i : Img.Idx) : Tab.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨0, Nat.one_pos⟩

/-- `x · s + t`, the tables read at the index's sample and channel. -/
def affine (x : Img.Idx → Elt F .f32) (s t : Tab.Idx → Elt F .f32) : Img.Idx → Elt F .f32 :=
  fun i => FloatOps.addf (FloatOps.mulf (x i) (s (entry i))) (t (entry i))

theorem affine_apply (x : Img.Idx → Elt F .f32) (s t : Tab.Idx → Elt F .f32) (i : Img.Idx) :
    affine x s t i = FloatOps.addf (FloatOps.mulf (x i) (s (entry i))) (t (entry i)) := rfl

end Cert.Affine

end
-- ==== Proof.KernelArray.lean ====
/-
  The kernel's output array, whole.

  The grid has one point per (sample, channel) pair: 16 × 3 = 48 points. At point (b, c) the image window and the
  output window are both at the 1024 × 1024 plane (b, c, ·, ·), and each table window is at the single entry
  (b, c, 0, 0). The body multiplies the image plane by the one scale entry, adds the one shift entry, and stores
  the plane. So what point (b, c) writes back is the plane (b, c) of ONE whole-array function,
  `affine image scale shift`; the 48 planes tile the [16, 3, 1024, 1024] array, so the array ends at that function.
-/
import proofs.«138094_j13907104104704_1_alg».proof.Proof.KernelIdealValueP
import proofs.«138094_j13907104104704_1_alg».proof.Proof.Affine
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.Pipeline (Dat)
open Cert.Affine (affine entry)

variable {F : FTy → Type} [FloatOps F]
variable (m : (ℓ : Loc nD τ sig) → Buf (Elt F) ℓ) (ρ : Dev nD → PrngReg)

/-- Every access of the body starts at the corner of its buffer. -/
theorem corner : (![0, 0, 0, 0] : Fin 4 → Nat) = fun _ => 0 := funext fun a => by fin_cases a <;> rfl

/-- The four index maps over the 48 grid points: all four windows are at block (b, c, 0, 0) at point (b, c),
    with b < 16 and c < 3. -/
theorem index_facts : ∀ t : Fin cfg0.N,
    win0_0.index t (0 : Fin 4) = win0_3.index t (0 : Fin 4) ∧ win0_0.index t (1 : Fin 4) = win0_3.index t (1 : Fin 4)
    ∧ win0_0.index t (2 : Fin 4) = 0 ∧ win0_0.index t (3 : Fin 4) = 0
    ∧ win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_2.index t (0 : Fin 4) = win0_3.index t (0 : Fin 4) ∧ win0_2.index t (1 : Fin 4) = win0_3.index t (1 : Fin 4)
    ∧ win0_2.index t (2 : Fin 4) = 0 ∧ win0_2.index t (3 : Fin 4) = 0
    ∧ win0_3.index t (0 : Fin 4) ≤ 15 ∧ win0_3.index t (1 : Fin 4) ≤ 2
    ∧ win0_3.index t (2 : Fin 4) = 0 ∧ win0_3.index t (3 : Fin 4) = 0 :=
  (by decide +kernel : ∀ t : Fin grid0.N, _)

/-- Every (sample, channel) pair is some grid point's output block. -/
theorem index_onto : ∀ (b : Fin 16) (ch : Fin 3), ∃ t : Fin cfg0.N, win0_3.index t = ![b.val, ch.val, 0, 0] :=
  (by decide +kernel : ∀ (b : Fin 16) (ch : Fin 3), ∃ t : Fin grid0.N, win0_3.index t = ![b.val, ch.val, 0, 0])

/-- What point `t` writes back is plane `t` of `affine` of the three arrays the region finds. -/
theorem flushed_eq (c : Dev nD) (t : Fin cfg0.N) :
    (dats m 0 c).flushed 3 t = ((cfg0.win 3).blk t).view.read (Elt F)
      (affine (V m c main_arg0) (V m c main_v14) (V m c main_v15)) := by
  rw [ValueP.flushed3]
  unfold out0_3
  simp only [View.ld_unit_zero (S := S1x1x1024x1024) corner, View.ld_unit_zero (S := S1x1x1x1) corner]
  funext j
  show View.canon [⟨r0_0, k0_pay1 (iblk m c 0 t) (iblk m c 1 t) (iblk m c 2 t)⟩] j
      = affine (V m c main_arg0) (V m c main_v14) (V m c main_v15) (((cfg0.win 3).blk t).view.emb j)
  refine (ValueP.canon3_eq (iblk m c 0 t) (iblk m c 1 t) (iblk m c 2 t) j).trans ?_
  obtain ⟨i00, i01, i02, i03, i10, i11, i12, i13, i20, i21, i22, i23, -, -, o2, o3⟩ := index_facts t
  have hj0 : (j 0).val < 1 := (j 0).isLt
  have hj1 : (j 1).val < 1 := (j 1).isLt
  have hj2 : (j 2).val < 1024 := (j 2).isLt
  have hj3 : (j 3).val < 1024 := (j 3).isLt
  -- the image element under block index `j` is the output element under it
  have h0 : ((cfg0.win 0).blk t).view.emb (ValueP.ix3_0 j) = ((cfg0.win 3).blk t).view.emb j := by
    funext a; apply Fin.ext
    match a with
    | ⟨0, _⟩ => show win0_0.index t (0 : Fin 4) * 1 + 1 * 0 = win0_3.index t (0 : Fin 4) * 1 + 1 * (j 0).val; omega
    | ⟨1, _⟩ => show win0_0.index t (1 : Fin 4) * 1 + 1 * 0 = win0_3.index t (1 : Fin 4) * 1 + 1 * (j 1).val; omega
    | ⟨2, _⟩ => show win0_0.index t (2 : Fin 4) * 1024 + 1 * (j 2).val = win0_3.index t (2 : Fin 4) * 1024 + 1 * (j 2).val; omega
    | ⟨3, _⟩ => show win0_0.index t (3 : Fin 4) * 1024 + 1 * (j 3).val = win0_3.index t (3 : Fin 4) * 1024 + 1 * (j 3).val; omega
  -- the one scale entry of the point is the entry the output element's sample and channel name
  have h1 : ((cfg0.win 1).blk t).view.emb (ValueP.ix3_1 j) = entry (((cfg0.win 3).blk t).view.emb j) := by
    funext a; apply Fin.ext
    match a with
    | ⟨0, _⟩ => show win0_1.index t (0 : Fin 4) * 1 + 1 * 0 = win0_3.index t (0 : Fin 4) * 1 + 1 * (j 0).val; omega
    | ⟨1, _⟩ => show win0_1.index t (1 : Fin 4) * 1 + 1 * 0 = win0_3.index t (1 : Fin 4) * 1 + 1 * (j 1).val; omega
    | ⟨2, _⟩ => show win0_1.index t (2 : Fin 4) * 1 + 1 * 0 = 0; omega
    | ⟨3, _⟩ => show win0_1.index t (3 : Fin 4) * 1 + 1 * 0 = 0; omega
  -- and likewise the one shift entry
  have h2 : ((cfg0.win 2).blk t).view.emb (ValueP.ix3_2 j) = entry (((cfg0.win 3).blk t).view.emb j) := by
    funext a; apply Fin.ext
    match a with
    | ⟨0, _⟩ => show win0_2.index t (0 : Fin 4) * 1 + 1 * 0 = win0_3.index t (0 : Fin 4) * 1 + 1 * (j 0).val; omega
    | ⟨1, _⟩ => show win0_2.index t (1 : Fin 4) * 1 + 1 * 0 = win0_3.index t (1 : Fin 4) * 1 + 1 * (j 1).val; omega
    | ⟨2, _⟩ => show win0_2.index t (2 : Fin 4) * 1 + 1 * 0 = 0; omega
    | ⟨3, _⟩ => show win0_2.index t (3 : Fin 4) * 1 + 1 * 0 = 0; omega
  show FloatOps.addf (FloatOps.mulf (V m c main_arg0 (((cfg0.win 0).blk t).view.emb (ValueP.ix3_0 j)))
        (V m c main_v14 (((cfg0.win 1).blk t).view.emb (ValueP.ix3_1 j))))
        (V m c main_v15 (((cfg0.win 2).blk t).view.emb (ValueP.ix3_2 j)))
      = FloatOps.addf (FloatOps.mulf (V m c main_arg0 (((cfg0.win 3).blk t).view.emb j))
        (V m c main_v14 (entry (((cfg0.win 3).blk t).view.emb j))))
        (V m c main_v15 (entry (((cfg0.win 3).blk t).view.emb j)))
  rw [h0, h1, h2]

/-- An index of the array is in point `t`'s output block iff each coordinate is in the block's range on its axis. -/
theorem mem_blk (t : Fin cfg0.N) (i : S16x3x1024x1024.Idx) :
    i ∈ ((cfg0.win 3).blk t).view.set ↔ ∀ a : Fin 4, win0_3.index t a * S1x1x1024x1024.size a ≤ (i a).val
      ∧ (i a).val < win0_3.index t a * S1x1x1024x1024.size a + S1x1x1024x1024.size a := by
  show i ∈ ((View.whole main_v16).slice (win0_3.rect t)).set ↔ _
  rw [View.set_slice_whole, Rect.mem_set_unit]
  exact Iff.rfl

/-- The 48 planes tile the array: the index (b, c, h, w) is in the block of the point whose output block is (b, c, 0, 0). -/
theorem cover (i : S16x3x1024x1024.Idx) :
    ∃ t : Fin cfg0.N, (cfg0.win 3).flush t = true ∧ i ∈ ((cfg0.win 3).blk t).view.set := by
  have hi0 : (i 0).val < 16 := (i 0).isLt
  have hi1 : (i 1).val < 3 := (i 1).isLt
  have hi2 : (i 2).val < 1024 := (i 2).isLt
  have hi3 : (i 3).val < 1024 := (i 3).isLt
  obtain ⟨t, ht⟩ := index_onto ⟨(i 0).val, hi0⟩ ⟨(i 1).val, hi1⟩
  have q0 : win0_3.index t (0 : Fin 4) = (i 0).val := congrFun ht 0
  have q1 : win0_3.index t (1 : Fin 4) = (i 1).val := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 1024 ≤ (i 2).val ∧ (i 2).val < win0_3.index t (2 : Fin 4) * 1024 + 1024; omega
  | ⟨3, _⟩ => show win0_3.index t (3 : Fin 4) * 1024 ≤ (i 3).val ∧ (i 3).val < win0_3.index t (3 : Fin 4) * 1024 + 1024; omega

/-- The output array after the run is `affine` of the image and the two tables as the region finds them. -/
theorem final (c : Dev nD) :
    (dats m 0 c).arrAt 3 cfg0.N = affine (V m c main_arg0) (V m c main_v14) (V m c main_v15) :=
  (dats m 0 c).arrAt_eq_of_cover 3 _ (fun t _ => flushed_eq m c t) cover

/-! ## The tables the region finds

Before the call the program normalises the camera index (a negative index `k` is read as `k + 34`), gathers row
`k` of a [34, 3] table for each of the 16 samples, and keeps the result as a [16, 3, 1, 1] array. It does this
twice, once for the scales and once for the shifts, with the same index. -/

/-- The [16, 3, 1, 1] table gathered from a [34, 3] table `x` at the normalised camera indices `k`. -/
def table (k : (⟨S16, .i32⟩ : BufTy).Contents (Elt F)) (x : (⟨S34x3, .f32⟩ : BufTy).Contents (Elt F)) :
    (⟨S16x3x1x1, .f32⟩ : BufTy).Contents (Elt F) :=
  broadcastInDim S16x3x1x1 ![0, 1] bcast_S16x3_S16x3x1x1_0_1
    (Host.gather gather_S34x3_S16x1_S16x3_1_0_n_n_0_1_13 x
      (broadcastInDim S16x1 ![0] bcast_S16_S16x1_0
        (select (cmpi .slt k (broadcastInDim S16 ![] bcast_S_S16 (constantI S_ 32 0#32)))
          (addi k (broadcastInDim S16 ![] bcast_S_S16 (constantI S_ 32 34#32))) k)))

/-- The scale window's array is the table gathered from the weights. -/
theorem V_scale (c : Dev nD) : (V m c main_v14 : S16x3x1x1.Idx → Elt F .f32)
    = table (m ((c : Thread nD τ).loc main_arg1)) (m ((c : Thread nD τ).loc main_arg2)) := by
  dsimp only [Gen.V, Gen.hostOps0]; after_results; rfl

/-- The shift window's array is the table gathered from the biases. -/
theorem V_shift (c : Dev nD) : (V m c main_v15 : S16x3x1x1.Idx → Elt F .f32)
    = table (m ((c : Thread nD τ).loc main_arg1)) (m ((c : Thread nD τ).loc main_arg3)) := by
  dsimp only [Gen.V, Gen.hostOps0]; after_results; rfl

/-! ## The run -/

/-- Every weakly fair execution ends with the output array at `affine` of the image and the two gathered tables,
    the arguments unchanged. -/
theorem run : θ_run defs (onTc (τ := τ) (main (F := F))) ⟨m, fun _ => 0, ρ⟩ fun r => ∀ c : Dev nD,
      r.2.mem ((c : Thread nD τ).loc main_v16)
        = affine (m ((c : Thread nD τ).loc main_arg0))
            (table (m ((c : Thread nD τ).loc main_arg1)) (m ((c : Thread nD τ).loc main_arg2)))
            (table (m ((c : Thread nD τ).loc main_arg1)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by rw [V_main_arg0, V_scale, V_shift])), (h c).2⟩)
    (ValueP.run_blocks m ρ)

end Cert.KernelIdeal.Whole

end
-- ==== Proof.ReferenceArray.lean ====
/-
  The reference's result, whole.

  The reference gathers the same two [16, 3, 1, 1] tables, spreads each over the two spatial axes to the image's
  shape, multiplies the image by the first and adds the second. Spreading a [16, 3, 1, 1] array to
  [16, 3, 1024, 1024] reads, at the index (b, c, h, w), the entry (b, c, 0, 0): so the result at an index is
  `x · s + t` with both tables read at the index's sample and channel — the function `affine` of the image and
  the two tables.
-/
import proofs.«138094_j13907104104704_1_alg».proof.Proof.Gen.ReferenceIdeal.Read
import proofs.«138094_j13907104104704_1_alg».proof.Proof.Affine

noncomputable section

namespace Cert.ReferenceIdeal.Whole

open Cert.ReferenceIdeal Cert.ReferenceIdeal.Gen Cert.ReferenceIdeal.Read Idealize.ShloMosaic
open Cert.Affine (affine entry)

variable {F : FTy → Type} [FloatOps F]

/-- Where the spread scale table is read at an image index: the entry of the index's sample and channel. -/
theorem scale_entry (i : S16x3x1024x1024.Idx) : idx_main_v16 i = entry i :=
  funext fun a => Fin.ext (by match a with | ⟨0, _⟩ => rfl | ⟨1, _⟩ => rfl | ⟨2, _⟩ => rfl | ⟨3, _⟩ => rfl)

/-- The same for the spread shift table. -/
theorem shift_entry (i : S16x3x1024x1024.Idx) : idx_main_v18 i = entry i :=
  funext fun a => Fin.ext (by match a with | ⟨0, _⟩ => rfl | ⟨1, _⟩ => rfl | ⟨2, _⟩ => rfl | ⟨3, _⟩ => rfl)

/-- The reference's last stage is `affine` of the image and its two gathered tables. -/
theorem result_eq (x0 : (⟨S16x3x1024x1024, .f32⟩ : BufTy).Contents (Elt F)) (x1 : (⟨S16, .i32⟩ : BufTy).Contents (Elt F))
    (x2 x3 : (⟨S34x3, .f32⟩ : BufTy).Contents (Elt F)) :
    val_main_v19 (F := F) x0 x1 x2 x3
      = affine x0 (val_main_v7 (F := F) x1 x2) (val_main_v15 (F := F) x1 x3) := by
  funext i
  rw [val_main_v19_apply, val_main_v17_apply, val_main_v16_apply, val_main_v18_apply, scale_entry, shift_entry]
  rfl

end Cert.ReferenceIdeal.Whole

end
-- ==== Proof.lean ====
/-
  A per-camera colour calibration: each of 16 images, 3 channels of 1024 × 1024, is scaled and shifted by one
  number per (image, channel), the numbers gathered from two [34, 3] tables at the image's camera index.

  Both programs gather the two [16, 3, 1, 1] tables on the host in the same way (a negative index `k` is read as
  `k + 34`, then row `k` of each table is taken). The kernel then walks a 16 × 3 grid, one 1024 × 1024 plane per point,
  multiplying the plane by its one scale and adding its one shift; the reference spreads both tables to the image's
  shape and multiplies and adds whole arrays. Either way the element (b, c, h, w) of the result is

      image[b, c, h, w] · scale[b, c, 0, 0] + shift[b, c, 0, 0],

  the same product and the same sum of the same three numbers, so the results agree element by element with no law
  of arithmetic used, and the finiteness of the inputs is not needed.

  `Proof/Affine.lean` states that function; `Proof/KernelArray.lean` shows the kernel's output array ends at it (each
  grid point writes its plane of it, and the 48 planes tile the array); `Proof/ReferenceArray.lean` shows the
  reference's last stage is it; here the two gathered tables are identified and the five claims assembled.
-/
import proofs.«138094_j13907104104704_1_alg».proof.Defs
import proofs.«138094_j13907104104704_1_alg».proof.Proof.Gen.Kernel
import proofs.«138094_j13907104104704_1_alg».proof.Proof.Gen.Kernel.Skeleton
import proofs.«138094_j13907104104704_1_alg».proof.Proof.Gen.Kernel.Launch
import proofs.«138094_j13907104104704_1_alg».proof.Proof.Gen.Kernel.Points
import proofs.«138094_j13907104104704_1_alg».proof.Proof.Gen.Kernel.Frame
import proofs.«138094_j13907104104704_1_alg».proof.Proof.Gen.KernelIdeal
import proofs.«138094_j13907104104704_1_alg».proof.Proof.Gen.KernelIdeal.Skeleton
import proofs.«138094_j13907104104704_1_alg».proof.Proof.Gen.KernelIdeal.Launch
import proofs.«138094_j13907104104704_1_alg».proof.Proof.Gen.KernelIdeal.Points
import proofs.«138094_j13907104104704_1_alg».proof.Proof.Gen.KernelIdeal.Frame
import proofs.«138094_j13907104104704_1_alg».proof.Proof.Gen.ReferenceIdeal
import proofs.«138094_j13907104104704_1_alg».proof.Proof.Gen.ReferenceIdeal.Run
import proofs.«138094_j13907104104704_1_alg».proof.Proof.Gen.ReferenceIdeal.Read
import proofs.«138094_j13907104104704_1_alg».proof.Proof.Gen.Pre_finite_inputs
import proofs.«138094_j13907104104704_1_alg».proof.Proof.KernelArray
import proofs.«138094_j13907104104704_1_alg».proof.Proof.ReferenceArray
import Idealize.ShloMosaic.Adequacy
import Idealize.ShloMosaic.Init

noncomputable section

namespace Cert.Proof

open Idealize.ShloMosaic Idealize.ShloMosaic.TcCoe Idealize.SL.Sem

/-- The kernel's host prefix and the reference gather the scale table by the same operations of the same arrays. -/
theorem scale_table (k : (⟨Cert.KernelIdeal.S16, .i32⟩ : BufTy).Contents (Elt Ideal))
    (x : (⟨Cert.KernelIdeal.S34x3, .f32⟩ : BufTy).Contents (Elt Ideal)) :
    Cert.ReferenceIdeal.Read.val_main_v7 (F := Ideal) k x = Cert.KernelIdeal.Whole.table (F := Ideal) k x := rfl

/-- And the shift table. -/
theorem shift_table (k : (⟨Cert.KernelIdeal.S16, .i32⟩ : BufTy).Contents (Elt Ideal))
    (x : (⟨Cert.KernelIdeal.S34x3, .f32⟩ : BufTy).Contents (Elt Ideal)) :
    Cert.ReferenceIdeal.Read.val_main_v15 (F := Ideal) k x = Cert.KernelIdeal.Whole.table (F := Ideal) k x := rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end, from memories agreeing on the arguments, with the result at `affine` of the image and the two
    gathered tables. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.Whole.result_eq, scale_table, shift_table,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
